-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 121
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x64, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x64, .f32⟩
  | .hbm, ⟨95, _⟩ => ⟨S1700000x1, .f32⟩
  | .hbm, ⟨96, _⟩ => ⟨S1700000x64, .f32⟩
  | .hbm, ⟨97, _⟩ => ⟨S1700000x64, .f32⟩
  | .hbm, ⟨98, _⟩ => ⟨S_, .f32⟩
  | .hbm, ⟨99, _⟩ => ⟨S100000x64, .f32⟩
  | .hbm, ⟨100, _⟩ => ⟨S1700000x1, .i32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S64x64, .f32⟩
  | .hbm, ⟨107, _⟩ => ⟨S100000x1, .i32⟩
  | .hbm, ⟨108, _⟩ => ⟨S64x64, .f32⟩
  | .hbm, ⟨109, _⟩ => ⟨S_, .f32⟩
  | .hbm, ⟨110, _⟩ => ⟨S100000, .f32⟩
  | .hbm, ⟨111, _⟩ => ⟨S_, .f32⟩
  | .hbm, ⟨112, _⟩ => ⟨S64, .f32⟩
  | .hbm, ⟨113, _⟩ => ⟨S100000x1, .i32⟩
  | .hbm, ⟨114, _⟩ => ⟨S64, .f32⟩
  | .hbm, ⟨115, _⟩ => ⟨S_, .f32⟩
  | .hbm, ⟨116, _⟩ => ⟨S64, .f32⟩
  | .hbm, ⟨117, _⟩ => ⟨S64, .f32⟩
  | .hbm, ⟨118, _⟩ => ⟨S64x1, .f32⟩
  | .hbm, ⟨119, _⟩ => ⟨S64x64, .f32⟩
  | .hbm, ⟨120, _⟩ => ⟨S64x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x1, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x64, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x64, .f32⟩
  | 105 => ⟨S1700000x1, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S64x64, .f32⟩
  | 117 => ⟨S100000x1, .i32⟩
  | 118 => ⟨S64x64, .f32⟩
  | 119 => ⟨S_, .f32⟩
  | 120 => ⟨S100000, .f32⟩
  | 121 => ⟨S_, .f32⟩
  | 122 => ⟨S64, .f32⟩
  | 123 => ⟨S100000x1, .i32⟩
  | 124 => ⟨S64, .f32⟩
  | 125 => ⟨S_, .f32⟩
  | 126 => ⟨S64, .f32⟩
  | 127 => ⟨S64, .f32⟩
  | _ => ⟨S100000x128, .f32⟩

abbrev hbmTy0_1 (i : Nat) : BufTy := match i % 128 with
  | 0 => ⟨S64x1, .f32⟩
  | 1 => ⟨S64x64, .f32⟩
  | 2 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_15 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_cst_17 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_18 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.RunAll.lean ====
/-
  The kernel program's run with every buffer named. The program is nine segments in a row: three stretches of host
  operations, the first launch, a stretch, the second launch, a stretch, the third launch, the closing stretch. The
  contents of the device's buffers at each boundary are a fold from the launch memory: a stretch applies its
  operations in order, a launch replaces its result array by what its write-backs leave and keeps every other buffer.
  Every weakly fair execution terminates, and in every final state EVERY unscoped buffer holds the last value of that
  fold. The program's result and its unchanged arguments are then two readings of this one statement.
-/
import proofs.«108647_j52982716564271_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and in
    every final state each unscoped buffer holds the fold's last value at it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c b hb)

end Cert.KernelIdeal.Whole

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Spec.lean ====
/-
  The functions both programs compute, over variable extents, at the extended reals.

  * `prod x w`: the plain matrix product, entry (i, j) ↦ ∑ k, x (i, k) · w (k, j).
  * `act a b`: a pre-activation a plus a bias b, cut below at zero: max (a + b) 0. The zero is the value of the f32
    zero word, written as that word's value on both sides and never evaluated.
  * `dense a b w`: a layer fed by the previous aggregate: entry (i, j) ↦ ∑ k, act (a (i, k)) (b (0, k)) · w (k, j), the
    bias a [1, K] row.
  Both are sums of products only: equal terms are equal whatever extended reals the arrays hold, so no finiteness of the
  inputs is used anywhere.
-/
import Idealize.ShloMosaic.PureOps.Ideal
import Idealize.ShloMosaic.Lib.ValueIdx

noncomputable section

namespace Cert.Gcn

open Idealize.ShloMosaic Idealize.ShloMosaic.ValueIdx

/-- A pre-activation plus its bias, cut below at zero. -/
def act (a b : Ideal .f32) : Ideal .f32 := max (a + b) (FloatOps.ofBits (F := Ideal) .f32 0x00000000#32)

/-- The plain matrix product, entry by entry. -/
def prod {n K N : Nat} (x : (⟨2, ![n, K]⟩ : Shape).Idx → Ideal .f32) (w : (⟨2, ![K, N]⟩ : Shape).Idx → Ideal .f32) :
    (⟨2, ![n, N]⟩ : Shape).Idx → Ideal .f32 :=
  fun i => ∑ k : Fin K, x (ix2 (i 0) k) * w (ix2 k (i 1))

theorem prod_apply {n K N : Nat} (x : (⟨2, ![n, K]⟩ : Shape).Idx → Ideal .f32)
    (w : (⟨2, ![K, N]⟩ : Shape).Idx → Ideal .f32) (r : Fin n) (q : Fin N) :
    prod x w (ix2 r q) = ∑ k : Fin K, x (ix2 r k) * w (ix2 k q) := rfl

/-- A dense layer on a biased, rectified input, entry by entry. -/
def dense {n K N : Nat} (a : (⟨2, ![n, K]⟩ : Shape).Idx → Ideal .f32) (b : (⟨2, ![1, K]⟩ : Shape).Idx → Ideal .f32)
    (w : (⟨2, ![K, N]⟩ : Shape).Idx → Ideal .f32) : (⟨2, ![n, N]⟩ : Shape).Idx → Ideal .f32 :=
  fun i => ∑ k : Fin K, act (a (ix2 (i 0) k)) (b (ix2 (0 : Fin 1) k)) * w (ix2 k (i 1))

theorem dense_apply {n K N : Nat} (a : (⟨2, ![n, K]⟩ : Shape).Idx → Ideal .f32)
    (b : (⟨2, ![1, K]⟩ : Shape).Idx → Ideal .f32) (w : (⟨2, ![K, N]⟩ : Shape).Idx → Ideal .f32) (r : Fin n) (q : Fin N) :
    dense a b w (ix2 r q) = ∑ k : Fin K, act (a (ix2 r k)) (b (ix2 (0 : Fin 1) k)) * w (ix2 k q) := rfl

theorem hz : (![0, 0] : Fin 2 → Nat) = fun _ => 0 := funext fun a => by fin_cases a <;> rfl

end Cert.Gcn

end
-- ==== Proof.Region0.lean ====
/-
  The first layer's dense transform. The launch walks 20 grid points; point t reads rows 5000·t … 5000·t + 4999 of the
  node-feature array and the whole first weight matrix, multiplies them into a zero accumulator, and writes the product
  back as rows 5000·t … 5000·t + 4999 of the result. Entry (i, j) of a row block's product depends only on row i of the
  features and column j of the weights, so the 20 written blocks are the restrictions of ONE function of the whole
  arrays, the plain matrix product  (i, j) ↦ ∑ k, x (i, k) · w (k, j),  and since the blocks tile the result array the
  array ends holding that function. Nothing here uses finiteness: only the definition of the product at an index.
-/
import proofs.«108647_j52982716564271_2_alg».proof.Proof.Gen.KernelIdeal.Frame
import proofs.«108647_j52982716564271_2_alg».proof.Proof.LibDense
import proofs.«108647_j52982716564271_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Gcn

variable (V : (c : Dev nD) → (b : Ref sig .tc) → Buf (Elt Ideal) ((c : Thread nD τ).loc b))

/-- The function the result array ends holding: the plain product of the arrays the launch found. -/
abbrev G (c : Dev nD) : S100000x128.Idx → Ideal .f32 :=
  prod (n := 100000) (K := 128) (N := 128) (V c main_arg0) (V c main_arg3)

/-- Where each window's block sits at grid point t: the row blocks move with t, the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is a row of the array. -/
theorem row_lt (t : Fin cfg0.N) (p : Fin 5000) : 5000 * t.val + p.val < 100000 := by
  have hN : cfg0.N = 20 := N_0
  have h := t.isLt
  have := p.isLt
  omega

/-- The matrix product of the body at (p, q): the sum over the contracted axis. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.LibDense.matmul_zero_plain _ (some .fp32) x0 x1 p q

/-- The feature block at point t, read at (p, k), is the feature array at row 5000·t + p. -/
theorem lhs_blk (c : Dev nD) (t : Fin cfg0.N) (p : Fin 5000) (k : Fin 128) :
    (iblk0 V c 0 t : Vec Ideal S5000x128 .f32) (ix2 p k)
      = (V c main_arg0 : S100000x128.Idx → Ideal .f32) (ix2 ⟨5000 * t.val + p.val, row_lt t p⟩ k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = 5000 * t.val + p.val; rw [e0]; omega
  | ⟨1, _⟩ => show win0_0.index t 1 * 128 + 1 * k.val = k.val; rw [e1]; omega

/-- The weight block at any point is the whole weight array. -/
theorem rhs_blk (c : Dev nD) (t : Fin cfg0.N) (k : Fin 128) (q : Fin 128) :
    (iblk0 V c 1 t : Vec Ideal S128x128 .f32) (ix2 k q) = (V c main_arg3 : S128x128.Idx → Ideal .f32) (ix2 k q) := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- Entry (p, q) of the result block of point t sits at (5000·t + p, q) of the result array. -/
theorem out_emb (t : Fin cfg0.N) (p : Fin 5000) (q : Fin 128) :
    ((cfg0.win 2).blk t).view.emb (ix2 p q) = (ix2 ⟨5000 * t.val + p.val, row_lt t p⟩ q : S100000x128.Idx) := by
  obtain ⟨-, -, -, -, e4, e5⟩ := idx_facts t
  funext a
  apply Fin.ext
  match a with
  | ⟨0, _⟩ => show win0_2.index t 0 * 5000 + 1 * p.val = 5000 * t.val + p.val; rw [e4]; omega
  | ⟨1, _⟩ => show win0_2.index t 1 * 128 + 1 * q.val = q.val; rw [e5]; omega

/-- What point t writes back is block t of the plain product of the arrays as the launch finds them. -/
theorem flushed_eq (c : Dev nD) (t : Fin cfg0.N) :
    (dat0 V c).flushed 2 t
      = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  refine (pay_apply _ _ p q).trans ?_
  rw [View.read_apply]
  refine Eq.trans ?_ (congrArg (G V c) (out_emb t p q)).symm
  refine Eq.trans ?_ (prod_apply (n := 100000) (K := 128) (N := 128) (V c main_arg0) (V c main_arg3)
    ⟨5000 * t.val + p.val, row_lt t p⟩ q).symm
  exact Finset.sum_congr rfl fun k _ => congrArg₂ (· * ·) (lhs_blk V c t p k) (rhs_blk V c t k q)

/-- An index of the result array is in point t's block iff each coordinate is in the block's range. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row r of the result array is written by the point r / 5000: the blocks tile the array. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t 0 * 5000 ≤ (i 0).val ∧ (i 0).val < win0_2.index t 0 * 5000 + 5000
    rw [e4, ht]; omega
  | ⟨1, _⟩ =>
    show win0_2.index t 1 * 128 ≤ (i 1).val ∧ (i 1).val < win0_2.index t 1 * 128 + 128
    rw [e5]; omega

/-- The result array after the launch: the plain product of the arrays the launch found. -/
theorem final (c : Dev nD) : (dat0 V c).arrAt 2 cfg0.N = G V c :=
  (dat0 V c).arrAt_eq_of_cover 2 (G V c) (fun t _ => flushed_eq V c t) cover

end Cert.KernelIdeal.Layer1

end
-- ==== Proof.Region1.lean ====
/-
  The second layer's dense transform, fused with the previous layer's bias and rectifier. The launch walks 20 grid
  points; point t reads rows 5000·t … 5000·t + 4999 of the previous aggregate, the whole [1, 128] bias row and the whole
  weight matrix; adds the bias row to every row of the block, cuts the sum below at zero, multiplies the result with the
  weights into a zero accumulator, and writes the product back as rows 5000·t … 5000·t + 4999 of the result. Entry (i, j)
  of a block's result depends only on row i of the aggregate, the bias row and column j of the weights, so the 20
  written blocks are the restrictions of ONE function of the whole arrays,
  (i, j) ↦ ∑ k, max (a (i, k) + b (0, k)) 0 · w (k, j),  and since the blocks tile the result array the array ends holding
  that function. Nothing here uses finiteness.
-/
import proofs.«108647_j52982716564271_2_alg».proof.Proof.Gen.KernelIdeal.Frame
import proofs.«108647_j52982716564271_2_alg».proof.Proof.LibDense
import proofs.«108647_j52982716564271_2_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Gcn

variable (V : (c : Dev nD) → (b : Ref sig .tc) → Buf (Elt Ideal) ((c : Thread nD τ).loc b))

/-- The function the result array ends holding: the dense layer of the arrays the launch found. -/
abbrev G (c : Dev nD) : S100000x128.Idx → Ideal .f32 :=
  dense (n := 100000) (K := 128) (N := 128) (V c main_v43) (V c main_v44) (V c main_arg5)

/-- Where each window's block sits at grid point t: the row blocks move with t, the bias and the weights stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is a row of the array. -/
theorem row_lt (t : Fin cfg1.N) (p : Fin 5000) : 5000 * t.val + p.val < 100000 := by
  have hN : cfg1.N = 20 := N_1
  have h := t.isLt
  have := p.isLt
  omega

/-- The body's arithmetic at (p, q): the bias row added, the cut at zero, then the sum over the contracted axis. -/
theorem pay_apply (x0 : Vec Ideal S5000x128 .f32) (x1 : Vec Ideal S1x128 .f32) (x2 : Vec Ideal S128x128 .f32)
    (p : Fin 5000) (q : Fin 128) :
    k1_pay1 (F := Ideal) x0 x1 x2 (ix2 p q)
      = ∑ k : Fin 128, act (x0 (ix2 p k)) (x1 (ix2 (0 : Fin 1) k)) * x2 (ix2 k q) := by
  unfold k1_pay1
  refine (Cert.LibDense.matmul_zero_plain _ (some .fp32) _ x2 p q).trans ?_
  refine Finset.sum_congr rfl fun k _ => congrArg (· * x2 (ix2 k q)) ?_
  show max (shapeCast S5000x128 x0 _ (ix2 p k) + broadcastTo S5000x128 (shapeCast S1x128 x1 _) _ (ix2 p k)) _ = _
  rw [shapeCast_self, shapeCast_self]
  exact congrArg (fun z => max (x0 (ix2 p k) + z) _) (broadcastTo_1b_ab_apply x1 _ p k)

/-- The aggregate's block at point t, read at (p, k), is the aggregate at row 5000·t + p. -/
theorem agg_blk (c : Dev nD) (t : Fin cfg1.N) (p : Fin 5000) (k : Fin 128) :
    (iblk1 V c 0 t : Vec Ideal S5000x128 .f32) (ix2 p k)
      = (V c main_v43 : S100000x128.Idx → Ideal .f32) (ix2 ⟨5000 * t.val + p.val, row_lt t p⟩ k) := by
  obtain ⟨e0, e1, -⟩ := idx_facts t
  unfold iblk1
  rw [View.read_apply]
  show V c main_v43 _ = V c main_v43 _
  congr 1
  funext a
  apply Fin.ext
  match a with
  | ⟨0, _⟩ => show win1_0.index t 0 * 5000 + 1 * p.val = 5000 * t.val + p.val; rw [e0]; omega
  | ⟨1, _⟩ => show win1_0.index t 1 * 128 + 1 * k.val = k.val; rw [e1]; omega

/-- The bias block at any point is the whole bias row. -/
theorem bias_blk (c : Dev nD) (t : Fin cfg1.N) (z : Fin 1) (k : Fin 128) :
    (iblk1 V c 1 t : Vec Ideal S1x128 .f32) (ix2 z k) = (V c main_v44 : S1x128.Idx → Ideal .f32) (ix2 z k) := by
  obtain ⟨-, -, e2, e3, -⟩ := idx_facts t
  unfold iblk1
  rw [View.read_apply]
  show V c main_v44 _ = V c main_v44 _
  congr 1
  funext a
  apply Fin.ext
  match a with
  | ⟨0, _⟩ => show win1_1.index t 0 * 1 + 1 * z.val = z.val; rw [e2]; omega
  | ⟨1, _⟩ => show win1_1.index t 1 * 128 + 1 * k.val = k.val; rw [e3]; omega

/-- The weight block at any point is the whole weight array. -/
theorem wt_blk (c : Dev nD) (t : Fin cfg1.N) (k : Fin 128) (q : Fin 128) :
    (iblk1 V c 2 t : Vec Ideal S128x128 .f32) (ix2 k q) = (V c main_arg5 : S128x128.Idx → Ideal .f32) (ix2 k q) := by
  obtain ⟨-, -, -, -, e4, e5, -⟩ := idx_facts t
  unfold iblk1
  rw [View.read_apply]
  show V c main_arg5 _ = V c main_arg5 _
  congr 1
  funext a
  apply Fin.ext
  match a with
  | ⟨0, _⟩ => show win1_2.index t 0 * 128 + 1 * k.val = k.val; rw [e4]; omega
  | ⟨1, _⟩ => show win1_2.index t 1 * 128 + 1 * q.val = q.val; rw [e5]; omega

/-- Entry (p, q) of the result block of point t sits at (5000·t + p, q) of the result array. -/
theorem out_emb (t : Fin cfg1.N) (p : Fin 5000) (q : Fin 128) :
    ((cfg1.win 3).blk t).view.emb (ix2 p q) = (ix2 ⟨5000 * t.val + p.val, row_lt t p⟩ q : S100000x128.Idx) := by
  obtain ⟨-, -, -, -, -, -, e6, e7⟩ := idx_facts t
  funext a
  apply Fin.ext
  match a with
  | ⟨0, _⟩ => show win1_3.index t 0 * 5000 + 1 * p.val = 5000 * t.val + p.val; rw [e6]; omega
  | ⟨1, _⟩ => show win1_3.index t 1 * 128 + 1 * q.val = q.val; rw [e7]; omega

/-- What point t writes back is block t of the dense layer of the arrays as the launch finds them. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  refine (pay_apply _ _ _ p q).trans ?_
  rw [View.read_apply]
  refine Eq.trans ?_ (congrArg (G V c) (out_emb t p q)).symm
  refine Eq.trans ?_ (dense_apply (n := 100000) (K := 128) (N := 128) (V c main_v43) (V c main_v44) (V c main_arg5)
    ⟨5000 * t.val + p.val, row_lt t p⟩ q).symm
  exact Finset.sum_congr rfl fun k _ => congrArg₂ (· * ·)
    (congrArg₂ act (agg_blk V c t p k) (bias_blk V c t 0 k)) (wt_blk V c t k q)

/-- An index of the result array is in point t's block iff each coordinate is in the block's range. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v45).slice (win1_3.rect t)).set ↔ _
  rw [View.set_slice_whole, Rect.mem_set_unit]
  exact Iff.rfl

/-- Row r of the result array is written by the point r / 5000: the blocks tile the array. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e6, e7⟩ := idx_facts t
  refine ⟨t, flush1_3 t, ?_⟩
  rw [mem_blk]
  intro a
  match a with
  | ⟨0, _⟩ =>
    show win1_3.index t 0 * 5000 ≤ (i 0).val ∧ (i 0).val < win1_3.index t 0 * 5000 + 5000
    rw [e6, ht]; omega
  | ⟨1, _⟩ =>
    show win1_3.index t 1 * 128 ≤ (i 1).val ∧ (i 1).val < win1_3.index t 1 * 128 + 128
    rw [e7]; omega

/-- The result array after the launch: the dense layer of the arrays the launch found. -/
theorem final (c : Dev nD) : (dat1 V c).arrAt 3 cfg1.N = G V c :=
  (dat1 V c).arrAt_eq_of_cover 3 (G V c) (fun t _ => flushed_eq V c t) cover

end Cert.KernelIdeal.Layer2

end
-- ==== Proof.Region2.lean ====
/-
  The third layer's dense transform, fused with the previous layer's bias and rectifier. The launch walks 20 grid
  points; point t reads rows 5000·t … 5000·t + 4999 of the previous aggregate, the whole [1, 128] bias row and the whole
  weight matrix; adds the bias row to every row of the block, cuts the sum below at zero, multiplies the result with the
  weights into a zero accumulator, and writes the product back as rows 5000·t … 5000·t + 4999 of the result. Entry (i, j)
  of a block's result depends only on row i of the aggregate, the bias row and column j of the weights, so the 20
  written blocks are the restrictions of ONE function of the whole arrays,
  (i, j) ↦ ∑ k, max (a (i, k) + b (0, k)) 0 · w (k, j),  and since the blocks tile the result array the array ends holding
  that function. Nothing here uses finiteness.
-/
import proofs.«108647_j52982716564271_2_alg».proof.Proof.Gen.KernelIdeal.Frame
import proofs.«108647_j52982716564271_2_alg».proof.Proof.LibDense
import proofs.«108647_j52982716564271_2_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen Cert.Gcn

variable (V : (c : Dev nD) → (b : Ref sig .tc) → Buf (Elt Ideal) ((c : Thread nD τ).loc b))

/-- The function the result array ends holding: the dense layer of the arrays the launch found. -/
abbrev G (c : Dev nD) : S100000x64.Idx → Ideal .f32 :=
  dense (n := 100000) (K := 128) (N := 64) (V c main_v58) (V c main_v59) (V c main_arg7)

/-- Where each window's block sits at grid point t: the row blocks move with t, the bias and the weights stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block t is a row of the array. -/
theorem row_lt (t : Fin cfg2.N) (p : Fin 5000) : 5000 * t.val + p.val < 100000 := by
  have hN : cfg2.N = 20 := N_2
  have h := t.isLt
  have := p.isLt
  omega

/-- The body's arithmetic at (p, q): the bias row added, the cut at zero, then the sum over the contracted axis. -/
theorem pay_apply (x0 : Vec Ideal S5000x128 .f32) (x1 : Vec Ideal S1x128 .f32) (x2 : Vec Ideal S128x64 .f32)
    (p : Fin 5000) (q : Fin 64) :
    k2_pay1 (F := Ideal) x0 x1 x2 (ix2 p q)
      = ∑ k : Fin 128, act (x0 (ix2 p k)) (x1 (ix2 (0 : Fin 1) k)) * x2 (ix2 k q) := by
  unfold k2_pay1
  refine (Cert.LibDense.matmul_zero_plain _ (some .fp32) _ x2 p q).trans ?_
  refine Finset.sum_congr rfl fun k _ => congrArg (· * x2 (ix2 k q)) ?_
  show max (shapeCast S5000x128 x0 _ (ix2 p k) + broadcastTo S5000x128 (shapeCast S1x128 x1 _) _ (ix2 p k)) _ = _
  rw [shapeCast_self, shapeCast_self]
  exact congrArg (fun z => max (x0 (ix2 p k) + z) _) (broadcastTo_1b_ab_apply x1 _ p k)

/-- The aggregate's block at point t, read at (p, k), is the aggregate at row 5000·t + p. -/
theorem agg_blk (c : Dev nD) (t : Fin cfg2.N) (p : Fin 5000) (k : Fin 128) :
    (iblk2 V c 0 t : Vec Ideal S5000x128 .f32) (ix2 p k)
      = (V c main_v58 : S100000x128.Idx → Ideal .f32) (ix2 ⟨5000 * t.val + p.val, row_lt t p⟩ k) := by
  obtain ⟨e0, e1, -⟩ := idx_facts t
  unfold iblk2
  rw [View.read_apply]
  show V c main_v58 _ = V c main_v58 _
  congr 1
  funext a
  apply Fin.ext
  match a with
  | ⟨0, _⟩ => show win2_0.index t 0 * 5000 + 1 * p.val = 5000 * t.val + p.val; rw [e0]; omega
  | ⟨1, _⟩ => show win2_0.index t 1 * 128 + 1 * k.val = k.val; rw [e1]; omega

/-- The bias block at any point is the whole bias row. -/
theorem bias_blk (c : Dev nD) (t : Fin cfg2.N) (z : Fin 1) (k : Fin 128) :
    (iblk2 V c 1 t : Vec Ideal S1x128 .f32) (ix2 z k) = (V c main_v59 : S1x128.Idx → Ideal .f32) (ix2 z k) := by
  obtain ⟨-, -, e2, e3, -⟩ := idx_facts t
  unfold iblk2
  rw [View.read_apply]
  show V c main_v59 _ = V c main_v59 _
  congr 1
  funext a
  apply Fin.ext
  match a with
  | ⟨0, _⟩ => show win2_1.index t 0 * 1 + 1 * z.val = z.val; rw [e2]; omega
  | ⟨1, _⟩ => show win2_1.index t 1 * 128 + 1 * k.val = k.val; rw [e3]; omega

/-- The weight block at any point is the whole weight array. -/
theorem wt_blk (c : Dev nD) (t : Fin cfg2.N) (k : Fin 128) (q : Fin 64) :
    (iblk2 V c 2 t : Vec Ideal S128x64 .f32) (ix2 k q) = (V c main_arg7 : S128x64.Idx → Ideal .f32) (ix2 k q) := by
  obtain ⟨-, -, -, -, e4, e5, -⟩ := idx_facts t
  unfold iblk2
  rw [View.read_apply]
  show V c main_arg7 _ = V c main_arg7 _
  congr 1
  funext a
  apply Fin.ext
  match a with
  | ⟨0, _⟩ => show win2_2.index t 0 * 128 + 1 * k.val = k.val; rw [e4]; omega
  | ⟨1, _⟩ => show win2_2.index t 1 * 64 + 1 * q.val = q.val; rw [e5]; omega

/-- Entry (p, q) of the result block of point t sits at (5000·t + p, q) of the result array. -/
theorem out_emb (t : Fin cfg2.N) (p : Fin 5000) (q : Fin 64) :
    ((cfg2.win 3).blk t).view.emb (ix2 p q) = (ix2 ⟨5000 * t.val + p.val, row_lt t p⟩ q : S100000x64.Idx) := by
  obtain ⟨-, -, -, -, -, -, e6, e7⟩ := idx_facts t
  funext a
  apply Fin.ext
  match a with
  | ⟨0, _⟩ => show win2_3.index t 0 * 5000 + 1 * p.val = 5000 * t.val + p.val; rw [e6]; omega
  | ⟨1, _⟩ => show win2_3.index t 1 * 64 + 1 * q.val = q.val; rw [e7]; omega

/-- What point t writes back is block t of the dense layer of the arrays as the launch finds them. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x64) hz]
  funext j
  obtain ⟨p, q, rfl⟩ : ∃ (p : Fin 5000) (q : Fin 64), j = ix2 p q := ⟨j 0, j 1, eq_ix2 j⟩
  refine (pay_apply _ _ _ p q).trans ?_
  rw [View.read_apply]
  refine Eq.trans ?_ (congrArg (G V c) (out_emb t p q)).symm
  refine Eq.trans ?_ (dense_apply (n := 100000) (K := 128) (N := 64) (V c main_v58) (V c main_v59) (V c main_arg7)
    ⟨5000 * t.val + p.val, row_lt t p⟩ q).symm
  exact Finset.sum_congr rfl fun k _ => congrArg₂ (· * ·)
    (congrArg₂ act (agg_blk V c t p k) (bias_blk V c t 0 k)) (wt_blk V c t k q)

/-- An index of the result array is in point t's block iff each coordinate is in the block's range. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v60).slice (win2_3.rect t)).set ↔ _
  rw [View.set_slice_whole, Rect.mem_set_unit]
  exact Iff.rfl

/-- Row r of the result array is written by the point r / 5000: the blocks tile the array. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e6, e7⟩ := idx_facts t
  refine ⟨t, flush2_3 t, ?_⟩
  rw [mem_blk]
  intro a
  match a with
  | ⟨0, _⟩ =>
    show win2_3.index t 0 * 5000 ≤ (i 0).val ∧ (i 0).val < win2_3.index t 0 * 5000 + 5000
    rw [e6, ht]; omega
  | ⟨1, _⟩ =>
    show win2_3.index t 1 * 64 ≤ (i 1).val ∧ (i 1).val < win2_3.index t 1 * 64 + 64
    rw [e7]; omega

/-- The result array after the launch: the dense layer of the arrays the launch found. -/
theorem final (c : Dev nD) : (dat2 V c).arrAt 3 cfg2.N = G V c :=
  (dat2 V c).arrAt_eq_of_cover 3 (G V c) (fun t _ => flushed_eq V c t) cover

end Cert.KernelIdeal.Layer3

end
-- ==== Proof.Bridge.lean ====
/-
  Two small bridges that mention no program.

  * A fold of host operations over a list written in two pieces is the fold over the second piece of the fold over the
    first.
  * The host's `dot_general` with the plain dimension numbers "M×K by K×N" is, entry by entry, the plain product; and
    applied to an input with a bias row spread down the rows and then cut below at zero, it is the dense layer of the
    specification. Both are read off the definition of the contraction at an index; no law of arithmetic beyond that
    definition is used, so the arrays may hold any extended reals.
-/
import proofs.«108647_j52982716564271_2_alg».proof.Proof.LibDense
import proofs.«108647_j52982716564271_2_alg».proof.Proof.Spec
import Idealize.ShloMosaic.Lib.StableHlo.Run

noncomputable section

namespace Cert.Bridge

open Idealize.ShloMosaic Idealize.ShloMosaic.ValueIdx Idealize.ShloMosaic.StableHlo Cert.Gcn Cert.LibDense

theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Reads of a fold that sit under the pieces of a joined array: each operation's result at its own buffer is its
    function's value, at another buffer what was there. -/
macro "after_rest" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

section Dense
variable {n K N : Nat} (wf : DotDims.WF (⟨2, ![n, K]⟩ : Shape) ⟨2, ![K, N]⟩ ⟨2, ![n, N]⟩ [1] [0] [0] [1] [] [])

/-- The plain product is the host's `dot_general`. -/
theorem prod_eq_dot (prec : Option ContractPrecision) (x : FVec Ideal (⟨2, ![n, K]⟩ : Shape) .f32)
    (w : FVec Ideal (⟨2, ![K, N]⟩ : Shape) .f32) :
    prod x w = Host.dotGeneral (plainOf wf) prec x w := by
  funext i
  obtain ⟨r, q, rfl⟩ : ∃ (r : Fin n) (q : Fin N), i = ix2 r q := ⟨i 0, i 1, eq_ix2 i⟩
  exact (dotGeneral_plain wf prec .single x w r q).symm

/-- The dense layer is the host's `dot_general` of the biased, rectified input: `bb` the bias row spread down the rows,
    `z` the zero spread over the array. -/
theorem dense_eq_dot (prec : Option ContractPrecision) (a bb z : FVec Ideal (⟨2, ![n, K]⟩ : Shape) .f32)
    (b : FVec Ideal (⟨2, ![1, K]⟩ : Shape) .f32) (w : FVec Ideal (⟨2, ![K, N]⟩ : Shape) .f32)
    (hb : ∀ (r : Fin n) (k : Fin K), bb (ix2 r k) = b (ix2 (0 : Fin 1) k))
    (hzero : ∀ (r : Fin n) (k : Fin K), z (ix2 r k) = FloatOps.ofBits (F := Ideal) .f32 0x00000000#32) :
    dense a b w = Host.dotGeneral (plainOf wf) prec (maximumf (addf a bb) z) w := by
  funext i
  obtain ⟨r, q, rfl⟩ : ∃ (r : Fin n) (q : Fin N), i = ix2 r q := ⟨i 0, i 1, eq_ix2 i⟩
  refine Eq.trans ?_ (dotGeneral_plain wf prec .single (maximumf (addf a bb) z) w r q).symm
  rw [Cert.Gcn.dense_apply]
  refine Finset.sum_congr rfl fun k _ => congrArg (· * w (ix2 k q)) ?_
  show max (a (ix2 r k) + b (ix2 (0 : Fin 1) k)) _ = max (a (ix2 r k) + bb (ix2 r k)) (z (ix2 r k))
  rw [hb r k, hzero r k]

end Dense

end Cert.Bridge

end
-- ==== Proof.FoldK.lean ====
/-
  Reads of the kernel program's fold. The contents of the device's buffers at the nine segment boundaries are a fold
  from the launch memory. Three kinds of facts about it are collected here.
  * A buffer that a segment does not write holds after the segment what it held before: the edge lists with self loops
    and the normalisation, computed once before the first launch, are still there at every later boundary, and every
    argument array holds its launch contents at the boundary where it is next read.
  * Each launch leaves in its result array the function of its input arrays proved in the three layer modules, here
    with the input arrays replaced by what the fold holds at them: the plain product of the features and the first
    weights; the dense layer of the previous aggregate, the reshaped bias and the next weights.
  * The bias a launch reads is the argument vector laid out as one row.
-/
import proofs.«108647_j52982716564271_2_alg».proof.Proof.Gen.KernelIdeal.Frame
import proofs.«108647_j52982716564271_2_alg».proof.Proof.Region0
import proofs.«108647_j52982716564271_2_alg».proof.Proof.Region1
import proofs.«108647_j52982716564271_2_alg».proof.Proof.Region2
import proofs.«108647_j52982716564271_2_alg».proof.Proof.Bridge
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.Gcn Cert.Bridge

variable (m : (ℓ : Loc nD τ sig) → Buf (Elt Ideal) ℓ) (ρ : Dev nD → PrngReg)

/-! ## A launch keeps every buffer that is not one of its arrays -/

theorem W4_keep (c : Dev nD) (b : Ref sig .tc) (hb : ∀ w, Pipeline.arrRef spec0 w ≠ b) :
    W4 m ρ c (no_index (Proc.devRef .tc b)) = W3 m ρ c (Proc.devRef .tc b) := W4_of_ne m ρ c b hb
theorem W6_keep (c : Dev nD) (b : Ref sig .tc) (hb : ∀ w, Pipeline.arrRef spec1 w ≠ b) :
    W6 m ρ c (no_index (Proc.devRef .tc b)) = W5 m ρ c (Proc.devRef .tc b) := W6_of_ne m ρ c b hb
theorem W8_keep (c : Dev nD) (b : Ref sig .tc) (hb : ∀ w, Pipeline.arrRef spec2 w ≠ b) :
    W8 m ρ c (no_index (Proc.devRef .tc b)) = W7 m ρ c (Proc.devRef .tc b) := W8_of_ne m ρ c b hb

/-- Walk a read down the fold: through a host stretch each operation's result at its own buffer is its function's value
    and at another buffer what was there; through a launch a buffer that is not one of its arrays is kept. -/
macro "fold_down" : tactic =>
  `(tactic| (simp (disch := decide) only [W9, W7, W5, W3, W2, W1, hostOps0, hostOps0_1, hostOps0_2, hostOps1, hostOps2, hostOps3,
      after_cons, after_nil,
      nullary_result', unary_result', binary_result', ternary_result', quaternary_result', reshape_result',
      nullary_result_ne', unary_result_ne', binary_result_ne', ternary_result_ne', quaternary_result_ne', reshape_result_ne',
      W4_keep, W6_keep, W8_keep]))

/-! ## The arguments, where they are read -/

theorem W3_arg0 (c : Dev nD) : W3 m ρ c (Proc.devRef .tc main_arg0) = m ((c : Thread nD τ).loc main_arg0) := by
  fold_down <;> rfl
theorem W3_arg3 (c : Dev nD) : W3 m ρ c (Proc.devRef .tc main_arg3) = m ((c : Thread nD τ).loc main_arg3) := by
  fold_down <;> rfl
theorem W4_arg4 (c : Dev nD) : W4 m ρ c (Proc.devRef .tc main_arg4) = m ((c : Thread nD τ).loc main_arg4) := by
  fold_down <;> rfl
theorem W5_arg5 (c : Dev nD) : W5 m ρ c (Proc.devRef .tc main_arg5) = m ((c : Thread nD τ).loc main_arg5) := by
  fold_down <;> rfl
theorem W6_arg6 (c : Dev nD) : W6 m ρ c (Proc.devRef .tc main_arg6) = m ((c : Thread nD τ).loc main_arg6) := by
  fold_down <;> rfl
theorem W7_arg7 (c : Dev nD) : W7 m ρ c (Proc.devRef .tc main_arg7) = m ((c : Thread nD τ).loc main_arg7) := by
  fold_down <;> rfl
theorem W8_arg8 (c : Dev nD) : W8 m ρ c (Proc.devRef .tc main_arg8) = m ((c : Thread nD τ).loc main_arg8) := by
  fold_down <;> rfl
theorem W8_arg2 (c : Dev nD) : W8 m ρ c (Proc.devRef .tc main_arg2) = m ((c : Thread nD τ).loc main_arg2) := by
  fold_down <;> rfl

/-! ## The edge lists and the normalisation stay where the first stretch put them -/

theorem W4_v3 (c : Dev nD) : W4 m ρ c (Proc.devRef .tc main_v3) = W3 m ρ c (Proc.devRef .tc main_v3) := by
  fold_down
theorem W4_v6 (c : Dev nD) : W4 m ρ c (Proc.devRef .tc main_v6) = W3 m ρ c (Proc.devRef .tc main_v6) := by
  fold_down
theorem W4_v29 (c : Dev nD) : W4 m ρ c (Proc.devRef .tc main_v29) = W3 m ρ c (Proc.devRef .tc main_v29) := by
  fold_down
theorem W6_v3 (c : Dev nD) : W6 m ρ c (Proc.devRef .tc main_v3) = W3 m ρ c (Proc.devRef .tc main_v3) := by
  fold_down
theorem W6_v6 (c : Dev nD) : W6 m ρ c (Proc.devRef .tc main_v6) = W3 m ρ c (Proc.devRef .tc main_v6) := by
  fold_down
theorem W6_v29 (c : Dev nD) : W6 m ρ c (Proc.devRef .tc main_v29) = W3 m ρ c (Proc.devRef .tc main_v29) := by
  fold_down
theorem W8_v3 (c : Dev nD) : W8 m ρ c (Proc.devRef .tc main_v3) = W3 m ρ c (Proc.devRef .tc main_v3) := by
  fold_down
theorem W8_v6 (c : Dev nD) : W8 m ρ c (Proc.devRef .tc main_v6) = W3 m ρ c (Proc.devRef .tc main_v6) := by
  fold_down
theorem W8_v29 (c : Dev nD) : W8 m ρ c (Proc.devRef .tc main_v29) = W3 m ρ c (Proc.devRef .tc main_v29) := by
  fold_down

/-! ## What each launch leaves in its result array -/

/-- After the first launch: the plain product of the features with the first weights. -/
theorem W4_v30 (c : Dev nD) : W4 m ρ c (Proc.devRef .tc main_v30)
    = prod (n := 100000) (K := 128) (N := 128) (m ((c : Thread nD τ).loc main_arg0)) (m ((c : Thread nD τ).loc main_arg3)) := by
  refine (W4_arr m ρ c 2).trans ((Cert.KernelIdeal.Layer1.final (V3 m ρ) c).trans ?_)
  show prod (n := 100000) (K := 128) (N := 128) (W3 m ρ c (Proc.devRef .tc main_arg0)) (W3 m ρ c (Proc.devRef .tc main_arg3)) = _
  rw [W3_arg0, W3_arg3]

/-- After the second launch: the dense layer of the first aggregate, the first bias row and the second weights. -/
theorem W6_v45 (c : Dev nD) : W6 m ρ c (Proc.devRef .tc main_v45)
    = dense (n := 100000) (K := 128) (N := 128) (W5 m ρ c (Proc.devRef .tc main_v43)) (W5 m ρ c (Proc.devRef .tc main_v44))
        (m ((c : Thread nD τ).loc main_arg5)) := by
  refine (W6_arr m ρ c 3).trans ((Cert.KernelIdeal.Layer2.final (V5 m ρ) c).trans ?_)
  show dense (n := 100000) (K := 128) (N := 128) (W5 m ρ c (Proc.devRef .tc main_v43)) (W5 m ρ c (Proc.devRef .tc main_v44))
    (W5 m ρ c (Proc.devRef .tc main_arg5)) = _
  rw [W5_arg5]

/-- After the third launch: the dense layer of the second aggregate, the second bias row and the third weights. -/
theorem W8_v60 (c : Dev nD) : W8 m ρ c (Proc.devRef .tc main_v60)
    = dense (n := 100000) (K := 128) (N := 64) (W7 m ρ c (Proc.devRef .tc main_v58)) (W7 m ρ c (Proc.devRef .tc main_v59))
        (m ((c : Thread nD τ).loc main_arg7)) := by
  refine (W8_arr m ρ c 3).trans ((Cert.KernelIdeal.Layer3.final (V7 m ρ) c).trans ?_)
  show dense (n := 100000) (K := 128) (N := 64) (W7 m ρ c (Proc.devRef .tc main_v58)) (W7 m ρ c (Proc.devRef .tc main_v59))
    (W7 m ρ c (Proc.devRef .tc main_arg7)) = _
  rw [W7_arg7]

/-! ## The bias rows the launches read -/

/-- The first bias, laid out as one row: entry (0, k) is the argument's entry k. -/
theorem W5_v44 (c : Dev nD) (k : Fin 128) : (W5 m ρ c (Proc.devRef .tc main_v44) : S1x128.Idx → Ideal .f32) (ValueIdx.ix2 (0 : Fin 1) k)
    = (m ((c : Thread nD τ).loc main_arg4) : S128.Idx → Ideal .f32) (ValueIdx.ix1 k) := by
  have e : W5 m ρ c (Proc.devRef .tc main_v44) = fun i => shapeCast S1x128 (W4 m ρ c (Proc.devRef .tc main_arg4)) shapeCasts_S128_S1x128 i := by
    dsimp only [W5, hostOps1]
    after_results_simp <;> rfl
  rw [e, W4_arg4]
  exact (shapeCast_addUnit_apply ![128] _ shapeCasts_S128_S1x128 (ValueIdx.ix2 (0 : Fin 1) k)).trans
    (congrArg _ (funext fun a => by match a with | ⟨0, _⟩ => rfl))

/-- The second bias, laid out as one row. -/
theorem W7_v59 (c : Dev nD) (k : Fin 128) : (W7 m ρ c (Proc.devRef .tc main_v59) : S1x128.Idx → Ideal .f32) (ValueIdx.ix2 (0 : Fin 1) k)
    = (m ((c : Thread nD τ).loc main_arg6) : S128.Idx → Ideal .f32) (ValueIdx.ix1 k) := by
  have e : W7 m ρ c (Proc.devRef .tc main_v59) = fun i => shapeCast S1x128 (W6 m ρ c (Proc.devRef .tc main_arg6)) shapeCasts_S128_S1x128 i := by
    dsimp only [W7, hostOps2]
    after_results_simp <;> rfl
  rw [e, W6_arg6]
  exact (shapeCast_addUnit_apply ![128] _ shapeCasts_S128_S1x128 (ValueIdx.ix2 (0 : Fin 1) k)).trans
    (congrArg _ (funext fun a => by match a with | ⟨0, _⟩ => rfl))

end Cert.KernelIdeal.Fold

end
-- ==== Proof.RefRun.lean ====
/-
  The reference program's run. The reference launches no kernel: it is 122 host operations in a row (the two outlined
  helpers, the select of `where` and the maximum of `relu`, standing at their call sites), so what every buffer holds at
  the end is the fold of those operations, in order, from the launch contents. The same list is also written in seven
  consecutive pieces, cut where the other program's host stretches and launches begin and end:
    A  the edge lists with self loops, the degrees, the symmetric normalisation (40 operations);
    B  the first dense product;            C  its aggregation over the edges (16);
    D  bias, rectifier and second product (7);   E  its aggregation (16);
    F  bias, rectifier and third product (7);    G  its aggregation, the last bias and the mean over each graph (35).
  The fold over the whole list is the fold over the pieces one after the other.
-/
import proofs.«108647_j52982716564271_2_alg».proof.Proof.Gen.ReferenceIdeal
import proofs.«108647_j52982716564271_2_alg».proof.Proof.Bridge
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- The program's 122 operations, in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg3 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg5 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf,
    binary main_v65 main_arg7 main_v66 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_12 (constantI S_ 32 0#32),
    unary main_c_12 main_v67 (broadcastInDim S1700000 ![] bcast_S_S1700000 : (⟨S_, .i32⟩ : BufTy).Contents (Elt F) → (⟨S1700000, .i32⟩ : BufTy).Contents (Elt F)),
    binary main_v3 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v3 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v74 (broadcastInDim S1700000x1 ![0] bcast_S1700000_S1700000x1_0 : (⟨S1700000, .f32⟩ : BufTy).Contents (Elt F) → (⟨S1700000x1, .f32⟩ : BufTy).Contents (Elt F)),
    unary main_v74 main_v75 (broadcastInDim S1700000x64 ![0, 1] bcast_S1700000x1_S1700000x64_0_1 : (⟨S1700000x1, .f32⟩ : BufTy).Contents (Elt F) → (⟨S1700000x64, .f32⟩ : BufTy).Contents (Elt F)),
    binary main_v73 main_v75 main_v76 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v77 (broadcastInDim S100000x64 ![] bcast_S_S100000x64 : (⟨S_, .f32⟩ : BufTy).Contents (Elt F) → (⟨S100000x64, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg8 main_v80 (broadcastInDim S1x64 ![1] bcast_S64_S1x64_1 : (⟨S64, .f32⟩ : BufTy).Contents (Elt F) → (⟨S1x64, .f32⟩ : BufTy).Contents (Elt F)),
    unary main_v80 main_v81 (broadcastInDim S100000x64 ![0, 1] bcast_S1x64_S100000x64_0_1 : (⟨S1x64, .f32⟩ : BufTy).Contents (Elt F) → (⟨S100000x64, .f32⟩ : BufTy).Contents (Elt F)),
    binary main_v79 main_v81 main_v82 (addf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    unary main_cst_15 main_v83 (broadcastInDim S64x64 ![] bcast_S_S64x64 : (⟨S_, .f32⟩ : BufTy).Contents (Elt F) → (⟨S64x64, .f32⟩ : BufTy).Contents (Elt F)),
    unary main_arg2 main_v84 (broadcastInDim S100000x1 ![0] bcast_S100000_S100000x1_0 : (⟨S100000, .i32⟩ : BufTy).Contents (Elt F) → (⟨S100000x1, .i32⟩ : BufTy).Contents (Elt F)),
    ternary main_v83 main_v84 main_v82 main_v85 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)),
    nullary main_cst_16 (constant S_ .f32 0x3F800000#32),
    unary main_cst_16 main_v86 (broadcastInDim S100000 ![] bcast_S_S100000 : (⟨S_, .f32⟩ : BufTy).Contents (Elt F) → (⟨S100000, .f32⟩ : BufTy).Contents (Elt F)),
    nullary main_cst_17 (constant S_ .f32 0x00000000#32),
    unary main_cst_17 main_v87 (broadcastInDim S64 ![] bcast_S_S64 : (⟨S_, .f32⟩ : BufTy).Contents (Elt F) → (⟨S64, .f32⟩ : BufTy).Contents (Elt F)),
    unary main_arg2 main_v88 (broadcastInDim S100000x1 ![0] bcast_S100000_S100000x1_0 : (⟨S100000, .i32⟩ : BufTy).Contents (Elt F) → (⟨S100000x1, .i32⟩ : BufTy).Contents (Elt F)),
    ternary main_v87 main_v88 main_v86 main_v89 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_18 (constant S_ .f32 0x3F800000#32),
    unary main_cst_18 main_v90 (broadcastInDim S64 ![] bcast_S_S64 : (⟨S_, .f32⟩ : BufTy).Contents (Elt F) → (⟨S64, .f32⟩ : BufTy).Contents (Elt F)),
    binary main_v89 main_v90 main_v91 (maximumf : (⟨S64, .f32⟩ : BufTy).Contents (Elt F) → (⟨S64, .f32⟩ : BufTy).Contents (Elt F) → (⟨S64, .f32⟩ : BufTy).Contents (Elt F)),
    unary main_v91 main_v92 (broadcastInDim S64x1 ![0] bcast_S64_S64x1_0 : (⟨S64, .f32⟩ : BufTy).Contents (Elt F) → (⟨S64x1, .f32⟩ : BufTy).Contents (Elt F)),
    unary main_v92 main_v93 (broadcastInDim S64x64 ![0, 1] bcast_S64x1_S64x64_0_1 : (⟨S64x1, .f32⟩ : BufTy).Contents (Elt F) → (⟨S64x64, .f32⟩ : BufTy).Contents (Elt F)),
    binary main_v85 main_v93 main_v94 (Host.divf : (⟨S64x64, .f32⟩ : BufTy).Contents (Elt F) → (⟨S64x64, .f32⟩ : BufTy).Contents (Elt F) → (⟨S64x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

set_option maxRecDepth 8192 in
set_option maxHeartbeats 48800000 in
/-- From any memory with zero counters every weakly fair execution terminates, and every buffer ends at the fold of the
    operations from the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

/-! ## The same list in seven pieces -/

/-- The edge lists with self loops, the degrees and the normalisation. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The first dense product. -/
abbrev opsB : List (HloOp τ sig (Elt F)) :=
  [ binary main_arg0 main_arg3 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The first aggregation over the edges. -/
abbrev opsC : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The first bias and rectifier, and the second dense product. -/
abbrev opsD : List (HloOp τ sig (Elt F)) :=
  [ unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg5 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The second aggregation over the edges. -/
abbrev opsE : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The second bias and rectifier, and the third dense product. -/
abbrev opsF : List (HloOp τ sig (Elt F)) :=
  [ unary main_arg6 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf,
    binary main_v65 main_arg7 main_v66 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The third aggregation, the last bias and the mean over each graph. -/
abbrev opsG : List (HloOp τ sig (Elt F)) :=
  [ nullary main_c_12 (constantI S_ 32 0#32),
    unary main_c_12 main_v67 (broadcastInDim S1700000 ![] bcast_S_S1700000 : (⟨S_, .i32⟩ : BufTy).Contents (Elt F) → (⟨S1700000, .i32⟩ : BufTy).Contents (Elt F)),
    binary main_v3 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v3 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v74 (broadcastInDim S1700000x1 ![0] bcast_S1700000_S1700000x1_0 : (⟨S1700000, .f32⟩ : BufTy).Contents (Elt F) → (⟨S1700000x1, .f32⟩ : BufTy).Contents (Elt F)),
    unary main_v74 main_v75 (broadcastInDim S1700000x64 ![0, 1] bcast_S1700000x1_S1700000x64_0_1 : (⟨S1700000x1, .f32⟩ : BufTy).Contents (Elt F) → (⟨S1700000x64, .f32⟩ : BufTy).Contents (Elt F)),
    binary main_v73 main_v75 main_v76 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v77 (broadcastInDim S100000x64 ![] bcast_S_S100000x64 : (⟨S_, .f32⟩ : BufTy).Contents (Elt F) → (⟨S100000x64, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg8 main_v80 (broadcastInDim S1x64 ![1] bcast_S64_S1x64_1 : (⟨S64, .f32⟩ : BufTy).Contents (Elt F) → (⟨S1x64, .f32⟩ : BufTy).Contents (Elt F)),
    unary main_v80 main_v81 (broadcastInDim S100000x64 ![0, 1] bcast_S1x64_S100000x64_0_1 : (⟨S1x64, .f32⟩ : BufTy).Contents (Elt F) → (⟨S100000x64, .f32⟩ : BufTy).Contents (Elt F)),
    binary main_v79 main_v81 main_v82 (addf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    unary main_cst_15 main_v83 (broadcastInDim S64x64 ![] bcast_S_S64x64 : (⟨S_, .f32⟩ : BufTy).Contents (Elt F) → (⟨S64x64, .f32⟩ : BufTy).Contents (Elt F)),
    unary main_arg2 main_v84 (broadcastInDim S100000x1 ![0] bcast_S100000_S100000x1_0 : (⟨S100000, .i32⟩ : BufTy).Contents (Elt F) → (⟨S100000x1, .i32⟩ : BufTy).Contents (Elt F)),
    ternary main_v83 main_v84 main_v82 main_v85 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)),
    nullary main_cst_16 (constant S_ .f32 0x3F800000#32),
    unary main_cst_16 main_v86 (broadcastInDim S100000 ![] bcast_S_S100000 : (⟨S_, .f32⟩ : BufTy).Contents (Elt F) → (⟨S100000, .f32⟩ : BufTy).Contents (Elt F)),
    nullary main_cst_17 (constant S_ .f32 0x00000000#32),
    unary main_cst_17 main_v87 (broadcastInDim S64 ![] bcast_S_S64 : (⟨S_, .f32⟩ : BufTy).Contents (Elt F) → (⟨S64, .f32⟩ : BufTy).Contents (Elt F)),
    unary main_arg2 main_v88 (broadcastInDim S100000x1 ![0] bcast_S100000_S100000x1_0 : (⟨S100000, .i32⟩ : BufTy).Contents (Elt F) → (⟨S100000x1, .i32⟩ : BufTy).Contents (Elt F)),
    ternary main_v87 main_v88 main_v86 main_v89 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_18 (constant S_ .f32 0x3F800000#32),
    unary main_cst_18 main_v90 (broadcastInDim S64 ![] bcast_S_S64 : (⟨S_, .f32⟩ : BufTy).Contents (Elt F) → (⟨S64, .f32⟩ : BufTy).Contents (Elt F)),
    binary main_v89 main_v90 main_v91 (maximumf : (⟨S64, .f32⟩ : BufTy).Contents (Elt F) → (⟨S64, .f32⟩ : BufTy).Contents (Elt F) → (⟨S64, .f32⟩ : BufTy).Contents (Elt F)),
    unary main_v91 main_v92 (broadcastInDim S64x1 ![0] bcast_S64_S64x1_0 : (⟨S64, .f32⟩ : BufTy).Contents (Elt F) → (⟨S64x1, .f32⟩ : BufTy).Contents (Elt F)),
    unary main_v92 main_v93 (broadcastInDim S64x64 ![0, 1] bcast_S64x1_S64x64_0_1 : (⟨S64x1, .f32⟩ : BufTy).Contents (Elt F) → (⟨S64x64, .f32⟩ : BufTy).Contents (Elt F)),
    binary main_v85 main_v93 main_v94 (Host.divf : (⟨S64x64, .f32⟩ : BufTy).Contents (Elt F) → (⟨S64x64, .f32⟩ : BufTy).Contents (Elt F) → (⟨S64x64, .f32⟩ : BufTy).Contents (Elt F)) ]

set_option maxRecDepth 8192 in
theorem ops_pieces : (ops : List (HloOp τ sig (Elt F))) = opsA ++ (opsB ++ (opsC ++ (opsD ++ (opsE ++ (opsF ++ opsG))))) := rfl

variable (m : (ℓ : Loc nD τ sig) → Buf (Elt F) ℓ)

/-- The buffers' contents after each piece. -/
abbrev WA (c : Dev nD) : Valuation τ sig (Elt F) := after opsA (launchContents m c)
abbrev WB (c : Dev nD) : Valuation τ sig (Elt F) := after opsB (WA m c)
abbrev WC (c : Dev nD) : Valuation τ sig (Elt F) := after opsC (WB m c)
abbrev WD (c : Dev nD) : Valuation τ sig (Elt F) := after opsD (WC m c)
abbrev WE (c : Dev nD) : Valuation τ sig (Elt F) := after opsE (WD m c)
abbrev WF (c : Dev nD) : Valuation τ sig (Elt F) := after opsF (WE m c)
abbrev WG (c : Dev nD) : Valuation τ sig (Elt F) := after opsG (WF m c)

/-- The fold over the whole list is the fold over the pieces in turn. -/
theorem after_ops (c : Dev nD) : after ops (launchContents m c) = WG m c := by
  rw [ops_pieces]
  simp only [Cert.Bridge.after_append]

end Cert.ReferenceIdeal.Whole

end
-- ==== Proof.FoldR.lean ====
/-
  Reads of the reference program's fold. The buffers' contents after each of the seven pieces of the operation list are
  named, so that the contents after the whole list is the last of them. Two kinds of facts are collected: an argument
  array still holds its launch contents at the piece that reads it, and the edge lists with self loops and the
  normalisation, computed by the first piece, are still there when the later aggregations read them.
-/
import proofs.«108647_j52982716564271_2_alg».proof.Proof.RefRun
import proofs.«108647_j52982716564271_2_alg».proof.Proof.Bridge
import Idealize.ShloMosaic.PureOps.Ideal

set_option maxRecDepth 16384

noncomputable section

open Idealize.ShloMosaic Idealize.ShloMosaic.TcCoe Idealize.SL.Sem Idealize.ShloMosaic.StableHlo

namespace Cert.ReferenceIdeal.Fold

open Cert.ReferenceIdeal Cert.ReferenceIdeal.Gen Cert.ReferenceIdeal.Whole Cert.Bridge

variable (m : (ℓ : Loc nD τ sig) → Buf (Elt Ideal) ℓ)

/-- The buffers' contents after each piece of the operation list. -/
def VA (c : Dev nD) : Valuation τ sig (Elt Ideal) := after opsA (launchContents m c)
def VB (c : Dev nD) : Valuation τ sig (Elt Ideal) := after opsB (VA m c)
def VC (c : Dev nD) : Valuation τ sig (Elt Ideal) := after opsC (VB m c)
def VD (c : Dev nD) : Valuation τ sig (Elt Ideal) := after opsD (VC m c)
def VE (c : Dev nD) : Valuation τ sig (Elt Ideal) := after opsE (VD m c)
def VF (c : Dev nD) : Valuation τ sig (Elt Ideal) := after opsF (VE m c)
def VG (c : Dev nD) : Valuation τ sig (Elt Ideal) := after opsG (VF m c)

theorem VA_eq (c : Dev nD) : VA m c = after opsA (launchContents m c) := rfl
theorem VB_eq (c : Dev nD) : VB m c = after opsB (VA m c) := rfl
theorem VC_eq (c : Dev nD) : VC m c = after opsC (VB m c) := rfl
theorem VD_eq (c : Dev nD) : VD m c = after opsD (VC m c) := rfl
theorem VE_eq (c : Dev nD) : VE m c = after opsE (VD m c) := rfl
theorem VF_eq (c : Dev nD) : VF m c = after opsF (VE m c) := rfl
theorem VG_eq (c : Dev nD) : VG m c = after opsG (VF m c) := rfl

/-- The contents after the whole list is the contents after the last piece. -/
theorem after_ops_eq (c : Dev nD) : after ops (launchContents m c) = VG m c := after_ops m c

/-- Walk a read down the pieces to the launch contents. -/
macro "fold_downR" : tactic =>
  `(tactic| (simp (disch := decide) only [VG_eq, VF_eq, VE_eq, VD_eq, VC_eq, VB_eq, VA_eq, opsA, opsB, opsC, opsD, opsE, opsF, opsG,
      after_cons, after_nil,
      nullary_result', unary_result', binary_result', ternary_result', quaternary_result', reshape_result',
      nullary_result_ne', unary_result_ne', binary_result_ne', ternary_result_ne', quaternary_result_ne', reshape_result_ne']))

/-! ## The arguments, where they are read -/

theorem VA_arg0 (c : Dev nD) : VA m c (Proc.devRef .tc main_arg0) = m ((c.tc : Thread nD τ).loc main_arg0) := by
  fold_downR <;> rfl
theorem VA_arg3 (c : Dev nD) : VA m c (Proc.devRef .tc main_arg3) = m ((c.tc : Thread nD τ).loc main_arg3) := by
  fold_downR <;> rfl
theorem VC_arg4 (c : Dev nD) : VC m c (Proc.devRef .tc main_arg4) = m ((c.tc : Thread nD τ).loc main_arg4) := by
  fold_downR <;> rfl
theorem VC_arg5 (c : Dev nD) : VC m c (Proc.devRef .tc main_arg5) = m ((c.tc : Thread nD τ).loc main_arg5) := by
  fold_downR <;> rfl
theorem VE_arg6 (c : Dev nD) : VE m c (Proc.devRef .tc main_arg6) = m ((c.tc : Thread nD τ).loc main_arg6) := by
  fold_downR <;> rfl
theorem VE_arg7 (c : Dev nD) : VE m c (Proc.devRef .tc main_arg7) = m ((c.tc : Thread nD τ).loc main_arg7) := by
  fold_downR <;> rfl
theorem VF_arg8 (c : Dev nD) : VF m c (Proc.devRef .tc main_arg8) = m ((c.tc : Thread nD τ).loc main_arg8) := by
  fold_downR <;> rfl
theorem VF_arg2 (c : Dev nD) : VF m c (Proc.devRef .tc main_arg2) = m ((c.tc : Thread nD τ).loc main_arg2) := by
  fold_downR <;> rfl

/-! ## The arguments end as launched -/

theorem VG_arg0 (c : Dev nD) : VG m c (Proc.devRef .tc main_arg0) = m ((c.tc : Thread nD τ).loc main_arg0) := by
  fold_downR <;> rfl
theorem VG_arg1 (c : Dev nD) : VG m c (Proc.devRef .tc main_arg1) = m ((c.tc : Thread nD τ).loc main_arg1) := by
  fold_downR <;> rfl
theorem VG_arg2 (c : Dev nD) : VG m c (Proc.devRef .tc main_arg2) = m ((c.tc : Thread nD τ).loc main_arg2) := by
  fold_downR <;> rfl
theorem VG_arg3 (c : Dev nD) : VG m c (Proc.devRef .tc main_arg3) = m ((c.tc : Thread nD τ).loc main_arg3) := by
  fold_downR <;> rfl
theorem VG_arg4 (c : Dev nD) : VG m c (Proc.devRef .tc main_arg4) = m ((c.tc : Thread nD τ).loc main_arg4) := by
  fold_downR <;> rfl
theorem VG_arg5 (c : Dev nD) : VG m c (Proc.devRef .tc main_arg5) = m ((c.tc : Thread nD τ).loc main_arg5) := by
  fold_downR <;> rfl
theorem VG_arg6 (c : Dev nD) : VG m c (Proc.devRef .tc main_arg6) = m ((c.tc : Thread nD τ).loc main_arg6) := by
  fold_downR <;> rfl
theorem VG_arg7 (c : Dev nD) : VG m c (Proc.devRef .tc main_arg7) = m ((c.tc : Thread nD τ).loc main_arg7) := by
  fold_downR <;> rfl
theorem VG_arg8 (c : Dev nD) : VG m c (Proc.devRef .tc main_arg8) = m ((c.tc : Thread nD τ).loc main_arg8) := by
  fold_downR <;> rfl

/-! ## The edge lists and the normalisation stay where the first piece put them -/

theorem VB_v3 (c : Dev nD) : VB m c (Proc.devRef .tc main_v3) = VA m c (Proc.devRef .tc main_v3) := by
  fold_downR
theorem VB_v6 (c : Dev nD) : VB m c (Proc.devRef .tc main_v6) = VA m c (Proc.devRef .tc main_v6) := by
  fold_downR
theorem VB_v29 (c : Dev nD) : VB m c (Proc.devRef .tc main_v29) = VA m c (Proc.devRef .tc main_v29) := by
  fold_downR
theorem VD_v3 (c : Dev nD) : VD m c (Proc.devRef .tc main_v3) = VA m c (Proc.devRef .tc main_v3) := by
  fold_downR
theorem VD_v6 (c : Dev nD) : VD m c (Proc.devRef .tc main_v6) = VA m c (Proc.devRef .tc main_v6) := by
  fold_downR
theorem VD_v29 (c : Dev nD) : VD m c (Proc.devRef .tc main_v29) = VA m c (Proc.devRef .tc main_v29) := by
  fold_downR
theorem VF_v3 (c : Dev nD) : VF m c (Proc.devRef .tc main_v3) = VA m c (Proc.devRef .tc main_v3) := by
  fold_downR
theorem VF_v6 (c : Dev nD) : VF m c (Proc.devRef .tc main_v6) = VA m c (Proc.devRef .tc main_v6) := by
  fold_downR
theorem VF_v29 (c : Dev nD) : VF m c (Proc.devRef .tc main_v29) = VA m c (Proc.devRef .tc main_v29) := by
  fold_downR

end Cert.ReferenceIdeal.Fold

end
-- ==== Proof.Sim.lean ====
/-
  The two programs compute the same arrays, boundary by boundary. Both begin with the same forty host operations (the
  edge lists with self loops, the degrees, the symmetric normalisation), so from launch memories that agree on the
  arguments the three arrays every later aggregation reads are equal. Then, three times: the kernel program's launch
  leaves the plain product (first layer) or the dense layer of the biased, rectified aggregate (second and third), which
  is what the reference's `dot_general` computes, entry by entry a sum over the contracted axis, the kernel's reshaped bias
  row and the reference's twice-broadcast bias both reading the argument's entry k in column k; and the aggregation over
  the edges that follows is the same host operations in both programs applied to equal arrays. The closing operations
  (last bias, sum and count per graph, the quotient) are again the same operations applied to equal arrays. No step
  uses a law of arithmetic beyond the definition of the matrix product at an index, so nothing needs the inputs finite.
-/
import proofs.«108647_j52982716564271_2_alg».proof.Proof.FoldK
import proofs.«108647_j52982716564271_2_alg».proof.Proof.FoldR

set_option maxRecDepth 16384

noncomputable section

open Idealize.ShloMosaic Idealize.ShloMosaic.TcCoe Idealize.SL.Sem Idealize.ShloMosaic.StableHlo Idealize.ShloMosaic.ValueIdx

namespace Cert.Sim

open Cert.Gcn Cert.Bridge

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two launch memories hold the same nine argument arrays on core c. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-! ## Broadcasts read at an index -/

/-- A vector spread as one row and then down the rows reads, at (r, k), the vector's entry k. -/
theorem bias_spread (x : Cert.ReferenceIdeal.S128.Idx → Ideal .f32) (h1 : Cert.ReferenceIdeal.S128.BroadcastsInDim Cert.ReferenceIdeal.S1x128 ![1])
    (h2 : Cert.ReferenceIdeal.S1x128.BroadcastsInDim Cert.ReferenceIdeal.S100000x128 ![0, 1]) (r : Fin 100000) (k : Fin 128) :
    broadcastInDim Cert.ReferenceIdeal.S100000x128 ![0, 1] h2 (broadcastInDim Cert.ReferenceIdeal.S1x128 ![1] h1 x) (ix2 r k) = x (ix1 k) :=
  (broadcastInDim_apply _ h2 _ (ix2 r k) (ix2 (0 : Fin 1) k) (fun a => match a with
      | ⟨0, _⟩ => by show 0 = if (1 : Nat) = 1 then 0 else r.val; rw [if_pos rfl]
      | ⟨1, _⟩ => by show k.val = if (128 : Nat) = 1 then 0 else k.val; rw [if_neg (by decide)])).trans
    (broadcastInDim_apply _ h1 x (ix2 (0 : Fin 1) k) (ix1 k) (fun a => match a with
      | ⟨0, _⟩ => by show k.val = if (128 : Nat) = 1 then 0 else k.val; rw [if_neg (by decide)]))

/-- A scalar constant spread over an array reads everywhere as the constant. -/
theorem const_spread {t : Shape} (h : Cert.ReferenceIdeal.S_.BroadcastsInDim t ![]) (w : BitVec 32) (i : t.Idx) :
    broadcastInDim t ![] h (constant (F := Ideal) Cert.ReferenceIdeal.S_ .f32 w) i = FloatOps.ofBits (F := Ideal) .f32 w :=
  (broadcastInDim_apply _ h _ i (fun a => a.elim0) (fun a => a.elim0)).trans rfl

/-- Two arrays joined along an axis, the pieces as plain arguments (so that a rewriting pass can read inside them). -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem concat2 {α : Type} (t : Shape) (a : Fin t.rank) (s1 s2 : Shape) (x : s1.Idx → α) (y : s2.Idx → α)
    (h : Shape.Concatenates [s1, s2] t a) :
    concatenate t a [⟨s1, x⟩, ⟨s2, y⟩] h = cat2 t a s1 s2 h x y := rfl

/-! ## The first forty operations: the edge lists with self loops and the normalisation -/

theorem pre_v3 (ag : Agree m m' c) :
    Cert.KernelIdeal.Gen.W3 m ρ c (Proc.devRef .tc Cert.KernelIdeal.main_v3) = Cert.ReferenceIdeal.Fold.VA m' c (Proc.devRef .tc Cert.ReferenceIdeal.main_v3) := by
  have e1 : launchContents m' c (Proc.devRef .tc Cert.ReferenceIdeal.main_arg1) = Cert.KernelIdeal.Gen.W0 m ρ c (Proc.devRef .tc Cert.KernelIdeal.main_arg1) := ag.a1
  rw [Cert.ReferenceIdeal.Fold.VA_eq]
  dsimp only [Cert.KernelIdeal.Gen.W3, Cert.KernelIdeal.Gen.W2, Cert.KernelIdeal.Gen.W1, Cert.KernelIdeal.Gen.hostOps0, Cert.KernelIdeal.Gen.hostOps0_1, Cert.KernelIdeal.Gen.hostOps0_2, Cert.ReferenceIdeal.Whole.opsA]
  after_results_simp
  after_rest
  rw [e1]
  rfl

theorem pre_v6 (ag : Agree m m' c) :
    Cert.KernelIdeal.Gen.W3 m ρ c (Proc.devRef .tc Cert.KernelIdeal.main_v6) = Cert.ReferenceIdeal.Fold.VA m' c (Proc.devRef .tc Cert.ReferenceIdeal.main_v6) := by
  have e1 : launchContents m' c (Proc.devRef .tc Cert.ReferenceIdeal.main_arg1) = Cert.KernelIdeal.Gen.W0 m ρ c (Proc.devRef .tc Cert.KernelIdeal.main_arg1) := ag.a1
  rw [Cert.ReferenceIdeal.Fold.VA_eq]
  dsimp only [Cert.KernelIdeal.Gen.W3, Cert.KernelIdeal.Gen.W2, Cert.KernelIdeal.Gen.W1, Cert.KernelIdeal.Gen.hostOps0, Cert.KernelIdeal.Gen.hostOps0_1, Cert.KernelIdeal.Gen.hostOps0_2, Cert.ReferenceIdeal.Whole.opsA]
  after_results_simp
  after_rest
  rw [e1]
  rfl

set_option maxHeartbeats 4000000 in
theorem pre_v29 (ag : Agree m m' c) :
    Cert.KernelIdeal.Gen.W3 m ρ c (Proc.devRef .tc Cert.KernelIdeal.main_v29) = Cert.ReferenceIdeal.Fold.VA m' c (Proc.devRef .tc Cert.ReferenceIdeal.main_v29) := by
  have e1 : launchContents m' c (Proc.devRef .tc Cert.ReferenceIdeal.main_arg1) = Cert.KernelIdeal.Gen.W0 m ρ c (Proc.devRef .tc Cert.KernelIdeal.main_arg1) := ag.a1
  rw [Cert.ReferenceIdeal.Fold.VA_eq]
  dsimp only [Cert.KernelIdeal.Gen.W3, Cert.KernelIdeal.Gen.W2, Cert.KernelIdeal.Gen.W1, Cert.KernelIdeal.Gen.hostOps0, Cert.KernelIdeal.Gen.hostOps0_1, Cert.KernelIdeal.Gen.hostOps0_2, Cert.ReferenceIdeal.Whole.opsA]
  simp (disch := decide) only [after_cons, after_nil,
    nullary_result', unary_result', binary_result', ternary_result', quaternary_result', reshape_result',
    nullary_result_ne', unary_result_ne', binary_result_ne', ternary_result_ne', quaternary_result_ne', reshape_result_ne',
    concat2]
  rw [e1]
  rfl

/-- They are still equal where each aggregation reads them. -/
theorem at4_v3 (ag : Agree m m' c) : Cert.KernelIdeal.Gen.W4 m ρ c (Proc.devRef .tc Cert.KernelIdeal.main_v3) = Cert.ReferenceIdeal.Fold.VB m' c (Proc.devRef .tc Cert.ReferenceIdeal.main_v3) :=
  (Cert.KernelIdeal.Fold.W4_v3 m ρ c).trans ((pre_v3 m ρ m' c ag).trans (Cert.ReferenceIdeal.Fold.VB_v3 m' c).symm)
theorem at4_v6 (ag : Agree m m' c) : Cert.KernelIdeal.Gen.W4 m ρ c (Proc.devRef .tc Cert.KernelIdeal.main_v6) = Cert.ReferenceIdeal.Fold.VB m' c (Proc.devRef .tc Cert.ReferenceIdeal.main_v6) :=
  (Cert.KernelIdeal.Fold.W4_v6 m ρ c).trans ((pre_v6 m ρ m' c ag).trans (Cert.ReferenceIdeal.Fold.VB_v6 m' c).symm)
theorem at4_v29 (ag : Agree m m' c) : Cert.KernelIdeal.Gen.W4 m ρ c (Proc.devRef .tc Cert.KernelIdeal.main_v29) = Cert.ReferenceIdeal.Fold.VB m' c (Proc.devRef .tc Cert.ReferenceIdeal.main_v29) :=
  (Cert.KernelIdeal.Fold.W4_v29 m ρ c).trans ((pre_v29 m ρ m' c ag).trans (Cert.ReferenceIdeal.Fold.VB_v29 m' c).symm)
theorem at6_v3 (ag : Agree m m' c) : Cert.KernelIdeal.Gen.W6 m ρ c (Proc.devRef .tc Cert.KernelIdeal.main_v3) = Cert.ReferenceIdeal.Fold.VD m' c (Proc.devRef .tc Cert.ReferenceIdeal.main_v3) :=
  (Cert.KernelIdeal.Fold.W6_v3 m ρ c).trans ((pre_v3 m ρ m' c ag).trans (Cert.ReferenceIdeal.Fold.VD_v3 m' c).symm)
theorem at6_v6 (ag : Agree m m' c) : Cert.KernelIdeal.Gen.W6 m ρ c (Proc.devRef .tc Cert.KernelIdeal.main_v6) = Cert.ReferenceIdeal.Fold.VD m' c (Proc.devRef .tc Cert.ReferenceIdeal.main_v6) :=
  (Cert.KernelIdeal.Fold.W6_v6 m ρ c).trans ((pre_v6 m ρ m' c ag).trans (Cert.ReferenceIdeal.Fold.VD_v6 m' c).symm)
theorem at6_v29 (ag : Agree m m' c) : Cert.KernelIdeal.Gen.W6 m ρ c (Proc.devRef .tc Cert.KernelIdeal.main_v29) = Cert.ReferenceIdeal.Fold.VD m' c (Proc.devRef .tc Cert.ReferenceIdeal.main_v29) :=
  (Cert.KernelIdeal.Fold.W6_v29 m ρ c).trans ((pre_v29 m ρ m' c ag).trans (Cert.ReferenceIdeal.Fold.VD_v29 m' c).symm)
theorem at8_v3 (ag : Agree m m' c) : Cert.KernelIdeal.Gen.W8 m ρ c (Proc.devRef .tc Cert.KernelIdeal.main_v3) = Cert.ReferenceIdeal.Fold.VF m' c (Proc.devRef .tc Cert.ReferenceIdeal.main_v3) :=
  (Cert.KernelIdeal.Fold.W8_v3 m ρ c).trans ((pre_v3 m ρ m' c ag).trans (Cert.ReferenceIdeal.Fold.VF_v3 m' c).symm)
theorem at8_v6 (ag : Agree m m' c) : Cert.KernelIdeal.Gen.W8 m ρ c (Proc.devRef .tc Cert.KernelIdeal.main_v6) = Cert.ReferenceIdeal.Fold.VF m' c (Proc.devRef .tc Cert.ReferenceIdeal.main_v6) :=
  (Cert.KernelIdeal.Fold.W8_v6 m ρ c).trans ((pre_v6 m ρ m' c ag).trans (Cert.ReferenceIdeal.Fold.VF_v6 m' c).symm)
theorem at8_v29 (ag : Agree m m' c) : Cert.KernelIdeal.Gen.W8 m ρ c (Proc.devRef .tc Cert.KernelIdeal.main_v29) = Cert.ReferenceIdeal.Fold.VF m' c (Proc.devRef .tc Cert.ReferenceIdeal.main_v29) :=
  (Cert.KernelIdeal.Fold.W8_v29 m ρ c).trans ((pre_v29 m ρ m' c ag).trans (Cert.ReferenceIdeal.Fold.VF_v29 m' c).symm)

/-! ## A value moved to a typed buffer's own type and back is the value

The outlined rectifier is stated over buffers that carry their tensor type; at the literal buffers of a call the
carried type IS the buffer's type, so moving a value along that equation changes nothing. -/

theorem tb_v47 (v : (⟨Cert.ReferenceIdeal.S100000x128, .f32⟩ : BufTy).Contents (Elt Ideal)) :
    (TRef.of (T := ⟨Cert.ReferenceIdeal.S100000x128, .f32⟩) Cert.ReferenceIdeal.main_v47).toBuf v = v := rfl
theorem ob_v47 (v : (⟨Cert.ReferenceIdeal.S100000x128, .f32⟩ : BufTy).Contents (Elt Ideal)) :
    (TRef.of (T := ⟨Cert.ReferenceIdeal.S100000x128, .f32⟩) Cert.ReferenceIdeal.main_v47).ofBuf v = v := rfl
theorem tb_v46 (v : (⟨Cert.ReferenceIdeal.S100000x128, .f32⟩ : BufTy).Contents (Elt Ideal)) :
    (TRef.of (T := ⟨Cert.ReferenceIdeal.S100000x128, .f32⟩) Cert.ReferenceIdeal.main_v46).toBuf v = v := rfl
theorem ob_v46 (v : (⟨Cert.ReferenceIdeal.S100000x128, .f32⟩ : BufTy).Contents (Elt Ideal)) :
    (TRef.of (T := ⟨Cert.ReferenceIdeal.S100000x128, .f32⟩) Cert.ReferenceIdeal.main_v46).ofBuf v = v := rfl
theorem tb_c1v0 (v : (⟨Cert.ReferenceIdeal.S100000x128, .f32⟩ : BufTy).Contents (Elt Ideal)) :
    (TRef.of (T := ⟨Cert.ReferenceIdeal.S100000x128, .f32⟩) Cert.ReferenceIdeal.main_call1_v0).toBuf v = v := rfl
theorem ob_c1v0 (v : (⟨Cert.ReferenceIdeal.S100000x128, .f32⟩ : BufTy).Contents (Elt Ideal)) :
    (TRef.of (T := ⟨Cert.ReferenceIdeal.S100000x128, .f32⟩) Cert.ReferenceIdeal.main_call1_v0).ofBuf v = v := rfl
theorem tb_c1cst (v : (⟨Cert.ReferenceIdeal.S_, .f32⟩ : BufTy).Contents (Elt Ideal)) :
    (TRef.of (T := ⟨Cert.ReferenceIdeal.S_, .f32⟩) Cert.ReferenceIdeal.main_call1_cst).toBuf v = v := rfl
theorem ob_c1cst (v : (⟨Cert.ReferenceIdeal.S_, .f32⟩ : BufTy).Contents (Elt Ideal)) :
    (TRef.of (T := ⟨Cert.ReferenceIdeal.S_, .f32⟩) Cert.ReferenceIdeal.main_call1_cst).ofBuf v = v := rfl
theorem tb_v65 (v : (⟨Cert.ReferenceIdeal.S100000x128, .f32⟩ : BufTy).Contents (Elt Ideal)) :
    (TRef.of (T := ⟨Cert.ReferenceIdeal.S100000x128, .f32⟩) Cert.ReferenceIdeal.main_v65).toBuf v = v := rfl
theorem ob_v65 (v : (⟨Cert.ReferenceIdeal.S100000x128, .f32⟩ : BufTy).Contents (Elt Ideal)) :
    (TRef.of (T := ⟨Cert.ReferenceIdeal.S100000x128, .f32⟩) Cert.ReferenceIdeal.main_v65).ofBuf v = v := rfl
theorem tb_v64 (v : (⟨Cert.ReferenceIdeal.S100000x128, .f32⟩ : BufTy).Contents (Elt Ideal)) :
    (TRef.of (T := ⟨Cert.ReferenceIdeal.S100000x128, .f32⟩) Cert.ReferenceIdeal.main_v64).toBuf v = v := rfl
theorem ob_v64 (v : (⟨Cert.ReferenceIdeal.S100000x128, .f32⟩ : BufTy).Contents (Elt Ideal)) :
    (TRef.of (T := ⟨Cert.ReferenceIdeal.S100000x128, .f32⟩) Cert.ReferenceIdeal.main_v64).ofBuf v = v := rfl
theorem tb_c2v0 (v : (⟨Cert.ReferenceIdeal.S100000x128, .f32⟩ : BufTy).Contents (Elt Ideal)) :
    (TRef.of (T := ⟨Cert.ReferenceIdeal.S100000x128, .f32⟩) Cert.ReferenceIdeal.main_call2_v0).toBuf v = v := rfl
theorem ob_c2v0 (v : (⟨Cert.ReferenceIdeal.S100000x128, .f32⟩ : BufTy).Contents (Elt Ideal)) :
    (TRef.of (T := ⟨Cert.ReferenceIdeal.S100000x128, .f32⟩) Cert.ReferenceIdeal.main_call2_v0).ofBuf v = v := rfl
theorem tb_c2cst (v : (⟨Cert.ReferenceIdeal.S_, .f32⟩ : BufTy).Contents (Elt Ideal)) :
    (TRef.of (T := ⟨Cert.ReferenceIdeal.S_, .f32⟩) Cert.ReferenceIdeal.main_call2_cst).toBuf v = v := rfl
theorem ob_c2cst (v : (⟨Cert.ReferenceIdeal.S_, .f32⟩ : BufTy).Contents (Elt Ideal)) :
    (TRef.of (T := ⟨Cert.ReferenceIdeal.S_, .f32⟩) Cert.ReferenceIdeal.main_call2_cst).ofBuf v = v := rfl

/-! ## The three layers -/

/-- First layer: the launch's plain product is the reference's `dot_general`. -/
theorem lay1 (ag : Agree m m' c) : Cert.KernelIdeal.Gen.W4 m ρ c (Proc.devRef .tc Cert.KernelIdeal.main_v30) = Cert.ReferenceIdeal.Fold.VB m' c (Proc.devRef .tc Cert.ReferenceIdeal.main_v30) := by
  rw [Cert.KernelIdeal.Fold.W4_v30, Cert.ReferenceIdeal.Fold.VB_eq]
  dsimp only [Cert.ReferenceIdeal.Whole.opsB]
  after_results_simp
  rw [Cert.ReferenceIdeal.Fold.VA_arg0, Cert.ReferenceIdeal.Fold.VA_arg3, ag.a0, ag.a3]
  exact prod_eq_dot _ none _ _

/-- First aggregation over the edges: the same operations applied to equal arrays. -/
theorem agg1 (ag : Agree m m' c) : Cert.KernelIdeal.Gen.W5 m ρ c (Proc.devRef .tc Cert.KernelIdeal.main_v43) = Cert.ReferenceIdeal.Fold.VC m' c (Proc.devRef .tc Cert.ReferenceIdeal.main_v43) := by
  rw [Cert.ReferenceIdeal.Fold.VC_eq]
  dsimp only [Cert.KernelIdeal.Gen.W5, Cert.KernelIdeal.Gen.hostOps1, Cert.ReferenceIdeal.Whole.opsC]
  after_results_simp
  rw [lay1 m ρ m' c ag, at4_v3 m ρ m' c ag, at4_v6 m ρ m' c ag, at4_v29 m ρ m' c ag]
  rfl

/-- Second layer: the launch's dense layer is the reference's bias, rectifier and `dot_general`. -/
theorem lay2 (ag : Agree m m' c) : Cert.KernelIdeal.Gen.W6 m ρ c (Proc.devRef .tc Cert.KernelIdeal.main_v45) = Cert.ReferenceIdeal.Fold.VD m' c (Proc.devRef .tc Cert.ReferenceIdeal.main_v48) := by
  rw [Cert.ReferenceIdeal.Fold.VD_eq]
  dsimp only [Cert.ReferenceIdeal.Whole.opsD]
  after_results_simp
  rw [Cert.ReferenceIdeal.Fold.VC_arg4, Cert.ReferenceIdeal.Fold.VC_arg5, ag.a4, ag.a5, ← agg1 m ρ m' c ag]
  rw [tb_v47, ob_v46, ob_c1v0, tb_c1v0, ob_c1cst, tb_c1cst]
  rw [Cert.KernelIdeal.Fold.W6_v45]
  refine dense_eq_dot (n := 100000) (K := 128) (N := 128) _ none _ _ _ _ _ (fun r k => ?_) (fun r k => ?_)
  · exact (bias_spread _ _ _ r k).trans (Cert.KernelIdeal.Fold.W5_v44 m ρ c k).symm
  · exact const_spread _ _ _

/-- Second aggregation over the edges. -/
theorem agg2 (ag : Agree m m' c) : Cert.KernelIdeal.Gen.W7 m ρ c (Proc.devRef .tc Cert.KernelIdeal.main_v58) = Cert.ReferenceIdeal.Fold.VE m' c (Proc.devRef .tc Cert.ReferenceIdeal.main_v61) := by
  rw [Cert.ReferenceIdeal.Fold.VE_eq]
  dsimp only [Cert.KernelIdeal.Gen.W7, Cert.KernelIdeal.Gen.hostOps2, Cert.ReferenceIdeal.Whole.opsE]
  after_results_simp
  rw [lay2 m ρ m' c ag, at6_v3 m ρ m' c ag, at6_v6 m ρ m' c ag, at6_v29 m ρ m' c ag]
  rfl

/-- Third layer. -/
theorem lay3 (ag : Agree m m' c) : Cert.KernelIdeal.Gen.W8 m ρ c (Proc.devRef .tc Cert.KernelIdeal.main_v60) = Cert.ReferenceIdeal.Fold.VF m' c (Proc.devRef .tc Cert.ReferenceIdeal.main_v66) := by
  rw [Cert.ReferenceIdeal.Fold.VF_eq]
  dsimp only [Cert.ReferenceIdeal.Whole.opsF]
  after_results_simp
  rw [Cert.ReferenceIdeal.Fold.VE_arg6, Cert.ReferenceIdeal.Fold.VE_arg7, ag.a6, ag.a7, ← agg2 m ρ m' c ag]
  rw [tb_v65, ob_v64, ob_c2v0, tb_c2v0, ob_c2cst, tb_c2cst]
  rw [Cert.KernelIdeal.Fold.W8_v60]
  refine dense_eq_dot (n := 100000) (K := 128) (N := 64) _ none _ _ _ _ _ (fun r k => ?_) (fun r k => ?_)
  · exact (bias_spread _ _ _ r k).trans (Cert.KernelIdeal.Fold.W7_v59 m ρ c k).symm
  · exact const_spread _ _ _

/-- Third aggregation, the last bias and the mean over each graph: the programs' results. -/
theorem pooled (ag : Agree m m' c) : Cert.KernelIdeal.Gen.W9 m ρ c (Proc.devRef .tc Cert.KernelIdeal.main_v88) = Cert.ReferenceIdeal.Fold.VG m' c (Proc.devRef .tc Cert.ReferenceIdeal.main_v94) := by
  rw [Cert.ReferenceIdeal.Fold.VG_eq]
  dsimp only [Cert.KernelIdeal.Gen.W9, Cert.KernelIdeal.Gen.hostOps3, Cert.ReferenceIdeal.Whole.opsG]
  after_results_simp
  rw [lay3 m ρ m' c ag, at8_v3 m ρ m' c ag, at8_v6 m ρ m' c ag, at8_v29 m ρ m' c ag,
    Cert.KernelIdeal.Fold.W8_arg8, Cert.KernelIdeal.Fold.W8_arg2, Cert.ReferenceIdeal.Fold.VF_arg8, Cert.ReferenceIdeal.Fold.VF_arg2, ag.a8, ag.a2]
  rfl

/-- The kernel program's result, as its fold leaves it, is the reference's, as its fold leaves it. -/
theorem result_eq (ag : Agree m m' c) :
    Cert.KernelIdeal.Gen.W9 m ρ c (Proc.devRef .tc Cert.KernelIdeal.main_v88) = after Cert.ReferenceIdeal.Whole.ops (launchContents m' c) (Proc.devRef .tc Cert.ReferenceIdeal.main_v94) :=
  (pooled m ρ m' c ag).trans (congrFun (Cert.ReferenceIdeal.Fold.after_ops_eq m' c).symm _)

end Cert.Sim

end
-- ==== Proof.lean ====
/-
  Three graph-convolution layers and a mean over each graph, computed two ways. Both programs build the edge lists with
  self loops, the node degrees and the symmetric normalisation with the same host operations; both aggregate each
  layer's transformed features over the edges with the same gather, scaling and scatter-add; both finish with the same
  bias, per-graph sum, per-graph count and quotient. They differ only in the dense transforms: one program multiplies
  20 blocks of 5000 rows by the weights in a launch (for the second and third layer adding the previous bias row and
  cutting at zero inside the launch), the other applies one whole-array matrix product to the biased, rectified array.
  Entry (i, j) of either is the same sum over the 128 contracted indices of the same products, so the arrays are equal
  whatever extended reals the inputs hold. The frames of the two kernel programs are the generated ones; the reference,
  which launches nothing, runs as the fold of its 122 host operations. No operation was rewritten by the idealization,
  so its preservation claim is the trivial one.
-/
import proofs.«108647_j52982716564271_2_alg».proof.Defs
import proofs.«108647_j52982716564271_2_alg».proof.Proof.Gen.Kernel
import proofs.«108647_j52982716564271_2_alg».proof.Proof.Gen.Kernel.Skeleton
import proofs.«108647_j52982716564271_2_alg».proof.Proof.Gen.Kernel.Launch
import proofs.«108647_j52982716564271_2_alg».proof.Proof.Gen.Kernel.Points
import proofs.«108647_j52982716564271_2_alg».proof.Proof.Gen.Kernel.Frame
import proofs.«108647_j52982716564271_2_alg».proof.Proof.Gen.KernelIdeal
import proofs.«108647_j52982716564271_2_alg».proof.Proof.Gen.KernelIdeal.Skeleton
import proofs.«108647_j52982716564271_2_alg».proof.Proof.Gen.KernelIdeal.Launch
import proofs.«108647_j52982716564271_2_alg».proof.Proof.Gen.KernelIdeal.Points
import proofs.«108647_j52982716564271_2_alg».proof.Proof.Gen.KernelIdeal.Frame
import proofs.«108647_j52982716564271_2_alg».proof.Proof.Gen.ReferenceIdeal
import proofs.«108647_j52982716564271_2_alg».proof.Proof.Gen.Pre_finite_inputs
import proofs.«108647_j52982716564271_2_alg».proof.Proof.RunAll
import proofs.«108647_j52982716564271_2_alg».proof.Proof.Sim
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: no operation of its list writes one. -/
theorem frame_ri : Cert.frame_ReferenceIdeal := fun m ρ _ =>
  (θ_run Cert.ReferenceIdeal.defs _ _).mono (fun _ h c =>
    ⟨(h c Cert.ReferenceIdeal.main_arg0).trans ((congrFun (Cert.ReferenceIdeal.Fold.after_ops_eq m c) _).trans (Cert.ReferenceIdeal.Fold.VG_arg0 m c)),
     (h c Cert.ReferenceIdeal.main_arg1).trans ((congrFun (Cert.ReferenceIdeal.Fold.after_ops_eq m c) _).trans (Cert.ReferenceIdeal.Fold.VG_arg1 m c)),
     (h c Cert.ReferenceIdeal.main_arg2).trans ((congrFun (Cert.ReferenceIdeal.Fold.after_ops_eq m c) _).trans (Cert.ReferenceIdeal.Fold.VG_arg2 m c)),
     (h c Cert.ReferenceIdeal.main_arg3).trans ((congrFun (Cert.ReferenceIdeal.Fold.after_ops_eq m c) _).trans (Cert.ReferenceIdeal.Fold.VG_arg3 m c)),
     (h c Cert.ReferenceIdeal.main_arg4).trans ((congrFun (Cert.ReferenceIdeal.Fold.after_ops_eq m c) _).trans (Cert.ReferenceIdeal.Fold.VG_arg4 m c)),
     (h c Cert.ReferenceIdeal.main_arg5).trans ((congrFun (Cert.ReferenceIdeal.Fold.after_ops_eq m c) _).trans (Cert.ReferenceIdeal.Fold.VG_arg5 m c)),
     (h c Cert.ReferenceIdeal.main_arg6).trans ((congrFun (Cert.ReferenceIdeal.Fold.after_ops_eq m c) _).trans (Cert.ReferenceIdeal.Fold.VG_arg6 m c)),
     (h c Cert.ReferenceIdeal.main_arg7).trans ((congrFun (Cert.ReferenceIdeal.Fold.after_ops_eq m c) _).trans (Cert.ReferenceIdeal.Fold.VG_arg7 m c)),
     (h c Cert.ReferenceIdeal.main_arg8).trans ((congrFun (Cert.ReferenceIdeal.Fold.after_ops_eq m c) _).trans (Cert.ReferenceIdeal.Fold.VG_arg8 m c))⟩)
    (Cert.ReferenceIdeal.Whole.run (F := Ideal) m ρ)

/-- The idealization rewrote nothing. -/
theorem preserves : Cert.preserves_Kernel_KernelIdeal := trivial

/-- From memories that agree on the arguments both programs end with the same result array: the last value of the
    kernel program's fold at its result buffer. -/
theorem algebraic : Cert.algebraic_KernelIdeal_ReferenceIdeal := by
  intro m ρ m' ρ' _ hagree
  refine ⟨fun c => Cert.KernelIdeal.Gen.W9 m ρ c (Proc.devRef .tc Cert.KernelIdeal.main_v88), ?_, ?_⟩
  · exact (θ_run Cert.KernelIdeal.defs _ _).mono (fun r h c =>
      ⟨h c _ (Cert.KernelIdeal.Gen.mem_uc Cert.KernelIdeal.main_v88 (by decide)),
       (h c _ (Cert.KernelIdeal.Gen.mem_uc Cert.KernelIdeal.main_arg0 (by decide))).trans (Cert.KernelIdeal.Gen.W9_main_arg0 m ρ c),
       (h c _ (Cert.KernelIdeal.Gen.mem_uc Cert.KernelIdeal.main_arg1 (by decide))).trans (Cert.KernelIdeal.Gen.W9_main_arg1 m ρ c),
       (h c _ (Cert.KernelIdeal.Gen.mem_uc Cert.KernelIdeal.main_arg2 (by decide))).trans (Cert.KernelIdeal.Gen.W9_main_arg2 m ρ c),
       (h c _ (Cert.KernelIdeal.Gen.mem_uc Cert.KernelIdeal.main_arg3 (by decide))).trans (Cert.KernelIdeal.Gen.W9_main_arg3 m ρ c),
       (h c _ (Cert.KernelIdeal.Gen.mem_uc Cert.KernelIdeal.main_arg4 (by decide))).trans (Cert.KernelIdeal.Gen.W9_main_arg4 m ρ c),
       (h c _ (Cert.KernelIdeal.Gen.mem_uc Cert.KernelIdeal.main_arg5 (by decide))).trans (Cert.KernelIdeal.Gen.W9_main_arg5 m ρ c),
       (h c _ (Cert.KernelIdeal.Gen.mem_uc Cert.KernelIdeal.main_arg6 (by decide))).trans (Cert.KernelIdeal.Gen.W9_main_arg6 m ρ c),
       (h c _ (Cert.KernelIdeal.Gen.mem_uc Cert.KernelIdeal.main_arg7 (by decide))).trans (Cert.KernelIdeal.Gen.W9_main_arg7 m ρ c),
       (h c _ (Cert.KernelIdeal.Gen.mem_uc Cert.KernelIdeal.main_arg8 (by decide))).trans (Cert.KernelIdeal.Gen.W9_main_arg8 m ρ c)⟩)
      (Cert.KernelIdeal.Whole.run_all m ρ)
  · refine (θ_run Cert.ReferenceIdeal.defs _ _).mono (fun r h c => ?_) (Cert.ReferenceIdeal.Whole.run (F := Ideal) m' ρ')
    obtain ⟨h0, h1, h2, h3, h4, h5, h6, h7, h8⟩ := hagree c
    exact ⟨(h c Cert.ReferenceIdeal.main_v94).trans (Cert.Sim.result_eq m ρ m' c ⟨h0, h1, h2, h3, h4, h5, h6, h7, h8⟩).symm,
       (h c Cert.ReferenceIdeal.main_arg0).trans ((congrFun (Cert.ReferenceIdeal.Fold.after_ops_eq m' c) _).trans (Cert.ReferenceIdeal.Fold.VG_arg0 m' c)),
       (h c Cert.ReferenceIdeal.main_arg1).trans ((congrFun (Cert.ReferenceIdeal.Fold.after_ops_eq m' c) _).trans (Cert.ReferenceIdeal.Fold.VG_arg1 m' c)),
       (h c Cert.ReferenceIdeal.main_arg2).trans ((congrFun (Cert.ReferenceIdeal.Fold.after_ops_eq m' c) _).trans (Cert.ReferenceIdeal.Fold.VG_arg2 m' c)),
       (h c Cert.ReferenceIdeal.main_arg3).trans ((congrFun (Cert.ReferenceIdeal.Fold.after_ops_eq m' c) _).trans (Cert.ReferenceIdeal.Fold.VG_arg3 m' c)),
       (h c Cert.ReferenceIdeal.main_arg4).trans ((congrFun (Cert.ReferenceIdeal.Fold.after_ops_eq m' c) _).trans (Cert.ReferenceIdeal.Fold.VG_arg4 m' c)),
       (h c Cert.ReferenceIdeal.main_arg5).trans ((congrFun (Cert.ReferenceIdeal.Fold.after_ops_eq m' c) _).trans (Cert.ReferenceIdeal.Fold.VG_arg5 m' c)),
       (h c Cert.ReferenceIdeal.main_arg6).trans ((congrFun (Cert.ReferenceIdeal.Fold.after_ops_eq m' c) _).trans (Cert.ReferenceIdeal.Fold.VG_arg6 m' c)),
       (h c Cert.ReferenceIdeal.main_arg7).trans ((congrFun (Cert.ReferenceIdeal.Fold.after_ops_eq m' c) _).trans (Cert.ReferenceIdeal.Fold.VG_arg7 m' c)),
       (h c Cert.ReferenceIdeal.main_arg8).trans ((congrFun (Cert.ReferenceIdeal.Fold.after_ops_eq m' c) _).trans (Cert.ReferenceIdeal.Fold.VG_arg8 m' c))⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
